-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S1x128 : Shape := ⟨2, ![1, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S200000x128 .f32) (main_arg1 : FVec F S200000x128 .f32) (main_arg2 : FVec F S1x128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S200000x128 : Shape := ⟨2, ![200000, 128]⟩
abbrev S1x128 : Shape := ⟨2, ![1, 128]⟩
abbrev S2x200000x128 : Shape := ⟨3, ![2, 200000, 128]⟩
abbrev S4000x128 : Shape := ⟨2, ![4000, 128]⟩
abbrev S2x4000x128 : Shape := ⟨3, ![2, 4000, 128]⟩
abbrev S1x4000x128 : Shape := ⟨3, ![1, 4000, 128]⟩

abbrev nBuf : Space → Nat
  | .hbm => 4
  | .vmem => 7
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S1x128, .f32⟩
  | .hbm, ⟨3, _⟩ => ⟨S2x200000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S1x128, .f32⟩
  | .local _ .vmem, ⟨5, _⟩ => ⟨S2x4000x128, .f32⟩
  | .local _ .vmem, ⟨6, _⟩ => ⟨S2x4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4000x128_S4000x128_0_0 : ∀ a, (![0, 0] : Fin 2 → Nat) a + S4000x128.size a ≤ S4000x128.size a
  h_S4000x128 : 0 < S4000x128.numel
  inb_S1x128_S1x128_0_0 : ∀ a, (![0, 0] : Fin 2 → Nat) a + S1x128.size a ≤ S1x128.size a
  h_S1x128 : 0 < S1x128.numel
  broadcasts_S1x128_S4000x128 : S1x128.Broadcasts S4000x128
  inb_S2x4000x128_S1x4000x128_0_0_0 : ∀ a, (![0, 0, 0] : Fin 3 → Nat) a + S1x4000x128.size a ≤ S2x4000x128.size a
  h_S1x4000x128 : 0 < S1x4000x128.numel
  shapeCasts_S1x4000x128_S4000x128 : S1x4000x128.ShapeCasts S4000x128
  shapeCasts_S4000x128_S1x4000x128 : S4000x128.ShapeCasts S1x4000x128
  inb_S2x4000x128_S1x4000x128_1_0_0 : ∀ a, (![1, 0, 0] : Fin 3 → Nat) a + S1x4000x128.size a ≤ S2x4000x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x4000x128.size a ≤ S2x200000x128.size a
  hwx0_3 : ∀ i : grid0.Coords, EltTy.bits .f32 = 32 ∨ (Rect.block (s := S2x200000x128) S2x4000x128.size (cc0_transform_3 i) (hinb0_3 i)).WholeWords (EltTy.packing .f32)

variable [Facts₀]

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x128 : Shape := ⟨2, ![200000, 128]⟩
abbrev S1x128 : Shape := ⟨2, ![1, 128]⟩
abbrev S_ : Shape := ⟨0, ![]⟩
abbrev S1x200000x128 : Shape := ⟨3, ![1, 200000, 128]⟩
abbrev S2x200000x128 : Shape := ⟨3, ![2, 200000, 128]⟩

abbrev nBuf : Space → Nat
  | .hbm => 27
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S1x128, .f32⟩
  | .hbm, ⟨3, _⟩ => ⟨S200000x128, .f32⟩
  | .hbm, ⟨4, _⟩ => ⟨S200000x128, .f32⟩
  | .hbm, ⟨5, _⟩ => ⟨S200000x128, .f32⟩
  | .hbm, ⟨6, _⟩ => ⟨S200000x128, .f32⟩
  | .hbm, ⟨7, _⟩ => ⟨S_, .f32⟩
  | .hbm, ⟨8, _⟩ => ⟨S200000x128, .f32⟩
  | .hbm, ⟨9, _⟩ => ⟨S200000x128, .i1⟩
  | .hbm, ⟨10, _⟩ => ⟨S_, .f32⟩
  | .hbm, ⟨11, _⟩ => ⟨S_, .f32⟩
  | .hbm, ⟨12, _⟩ => ⟨S200000x128, .f32⟩
  | .hbm, ⟨13, _⟩ => ⟨S200000x128, .f32⟩
  | .hbm, ⟨14, _⟩ => ⟨S200000x128, .f32⟩
  | .hbm, ⟨15, _⟩ => ⟨S200000x128, .f32⟩
  | .hbm, ⟨16, _⟩ => ⟨S_, .f32⟩
  | .hbm, ⟨17, _⟩ => ⟨S200000x128, .f32⟩
  | .hbm, ⟨18, _⟩ => ⟨S200000x128, .f32⟩
  | .hbm, ⟨19, _⟩ => ⟨S200000x128, .f32⟩
  | .hbm, ⟨20, _⟩ => ⟨S200000x128, .f32⟩
  | .hbm, ⟨21, _⟩ => ⟨S200000x128, .f32⟩
  | .hbm, ⟨22, _⟩ => ⟨S200000x128, .f32⟩
  | .hbm, ⟨23, _⟩ => ⟨S200000x128, .f32⟩
  | .hbm, ⟨24, _⟩ => ⟨S1x200000x128, .f32⟩
  | .hbm, ⟨25, _⟩ => ⟨S1x200000x128, .f32⟩
  | .hbm, ⟨26, _⟩ => ⟨S2x200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S200000x128 : S_.BroadcastsInDim S200000x128 (![] : Fin 0 → Fin S200000x128.rank)
  bcast_S1x128_S200000x128_0_1 : S1x128.BroadcastsInDim S200000x128 (![0, 1] : Fin 2 → Fin S200000x128.rank)
  bcast_S200000x128_S1x200000x128_1_2 : S200000x128.BroadcastsInDim S1x200000x128 (![1, 2] : Fin 2 → Fin S1x200000x128.rank)
  concatenates_S1x200000x128_S1x200000x128_S2x200000x128_d0 : Shape.Concatenates [S1x200000x128, S1x200000x128] S2x200000x128 0

variable [Facts₀]

class Facts : Prop extends Facts₀ where

variable [Facts]
-- ==== Proof.ModRelu.lean ====
/-
  Complex modReLU, one entry at a time, on the extended reals.

  For a complex number with real part `xr` and imaginary part `xi`, modulus `ρ = √(xr² + xi²)` and a real bias `b`,
  modReLU scales the number by `max (ρ + b) 0 / ρ` when `ρ > 0` and leaves it unchanged at the origin.

  Two spellings of that scale are compared here. One works from the squared modulus `s = xr² + xi²`: it takes the
  reciprocal root `s^(-1/2)` once, recovers the modulus as `s · s^(-1/2)`, and multiplies `max (s · s^(-1/2) + b) 0` by
  `s^(-1/2)`; its test for the origin is `s > 0`. The other takes the root `ρ = √s`, tests `ρ > 0`, and divides
  `max (ρ + b) 0` by `ρ`. In both, the quantity under the reciprocal (or the divisor) is replaced by the word for one
  where the test fails, so that nothing is divided by zero; that word is never looked at, because where the test fails the
  entry is returned unchanged.

  For REAL `xr`, `xi` the two agree (`viaRoot_eq_viaSquare`): `s ≥ 0` is a real, `s > 0` exactly when `√s > 0`, and for
  `s > 0` one has `s · (√s)⁻¹ = √s` and division by the nonzero real `√s` is multiplication by `(√s)⁻¹`. At an infinite
  `xr` they differ (`s · s^(-1/2)` is `∞ · 0 = 0` where `√s = ∞`), so the reals are needed.

  The arrays: two `[200000, 128]` arrays of real and imaginary parts and a `[1, 128]` bias row give a
  `[2, 200000, 128]` array, plane 0 the scaled real parts and plane 1 the scaled imaginary parts (`planes`).
-/
import Idealize.ShloMosaic.PureOps.Ideal
import Idealize.ShloMosaic.PureOps.Ideal.Laws
import Idealize.ShloMosaic.Lib.ValueIdx

noncomputable section

namespace Cert.ModRelu

open Idealize.ShloMosaic Idealize.ShloMosaic.ValueIdx

/-- The word for zero, as both programs print it. -/
abbrev zeroW : EReal := Ideal.ofBits .f32 0x00000000#32
/-- The word for one, as both programs print it. It is never evaluated. -/
abbrev oneW : EReal := Ideal.ofBits .f32 0x3F800000#32

/-- The squared modulus `xr² + xi²`. -/
def sq (xr xi : EReal) : EReal := xr * xr + xi * xi

/-- The entry `x` (the real or the imaginary part) scaled from the squared modulus: the reciprocal root once, the
    modulus recovered as `s · s^(-1/2)`; unchanged where `s > 0` fails. -/
def viaSquare (x xr xi b : EReal) : EReal :=
  Scalar.select (Ideal.cmp .ogt (sq xr xi) zeroW)
    (max (sq xr xi * Ideal.rsqrt (Scalar.select (Ideal.cmp .ogt (sq xr xi) zeroW) (sq xr xi) oneW) + b) zeroW
      * Ideal.rsqrt (Scalar.select (Ideal.cmp .ogt (sq xr xi) zeroW) (sq xr xi) oneW) * x)
    x

/-- The entry `x` scaled from the modulus `ρ = √s`: `max (ρ + b) 0 / ρ`; unchanged where `ρ > 0` fails. -/
def viaRoot (x xr xi b : EReal) : EReal :=
  Scalar.select (Ideal.cmp .ogt (Ideal.sqrt (sq xr xi)) zeroW)
    (Ideal.div (max (Ideal.sqrt (sq xr xi) + b) zeroW)
        (Scalar.select (Ideal.cmp .ogt (Ideal.sqrt (sq xr xi)) zeroW) (Ideal.sqrt (sq xr xi)) oneW) * x)
    x

/-- The squared modulus of real parts is the real `a² + c²`. -/
theorem sq_coe (a c : ℝ) : sq (a : EReal) (c : EReal) = ((a * a + c * c : ℝ) : EReal) := by
  unfold sq; rw [← EReal.coe_mul, ← EReal.coe_mul, ← EReal.coe_add]

/-- A positive real compares greater than the zero word; -/
theorem cmp_ogt_zeroW_of_pos {s : ℝ} (h : 0 < s) : Ideal.cmp .ogt (s : EReal) zeroW = 1#1 := by
  show BitVec.ofBool (decide (zeroW < (s : EReal))) = 1#1
  rw [show zeroW = ((0 : ℝ) : EReal) from Ideal.ofBits_zero_f32, decide_eq_true (EReal.coe_lt_coe_iff.mpr h)]
  rfl

/-- zero does not. -/
theorem cmp_ogt_zeroW_zero : Ideal.cmp .ogt ((0 : ℝ) : EReal) zeroW = 0#1 := by
  show BitVec.ofBool (decide (zeroW < ((0 : ℝ) : EReal))) = 0#1
  rw [show zeroW = ((0 : ℝ) : EReal) from Ideal.ofBits_zero_f32, decide_eq_false (lt_irrefl _)]
  rfl

/-- THE LAW: for real parts the two spellings of modReLU agree, whatever the bias and the scaled entry. -/
theorem viaRoot_eq_viaSquare (x b : EReal) (a c : ℝ) : viaRoot x (a : EReal) (c : EReal) b = viaSquare x (a : EReal) (c : EReal) b := by
  unfold viaRoot viaSquare
  rw [sq_coe]
  have hs0 : 0 ≤ a * a + c * c := add_nonneg (mul_self_nonneg a) (mul_self_nonneg c)
  generalize a * a + c * c = s at hs0
  rw [Ideal.sqrt_coe, if_neg (not_lt.mpr hs0)]
  rcases hs0.lt_or_eq with h | h
  · have hq : 0 < Real.sqrt s := Real.sqrt_pos.mpr h
    rw [cmp_ogt_zeroW_of_pos h, cmp_ogt_zeroW_of_pos hq, select_one, select_one, select_one, select_one,
      Ideal.rsqrt_coe, if_neg (not_lt.mpr hs0), if_neg h.ne', Ideal.div_coe hq.ne', one_div]
    have e : ((s : ℝ) : EReal) * (((Real.sqrt s)⁻¹ : ℝ) : EReal) = ((Real.sqrt s : ℝ) : EReal) := by
      rw [← EReal.coe_mul]
      congr 1
      have := Real.mul_self_sqrt hs0
      field_simp
      nlinarith [this]
    rw [e]
  · subst h
    rw [Real.sqrt_zero, cmp_ogt_zeroW_zero, select_zero, select_zero]

/-! ## The arrays -/

/-- One entry of the result: plane `k` (0 the real parts, 1 the imaginary parts), row `r`, lane `q`. -/
def entry (x0 x1 : (⟨2, ![200000, 128]⟩ : Shape).Idx → EReal) (x2 : (⟨2, ![1, 128]⟩ : Shape).Idx → EReal)
    (k : Fin 2) (r : Fin 200000) (q : Fin 128) : EReal :=
  viaSquare (if k.val = 0 then x0 (ix2 r q) else x1 (ix2 r q)) (x0 (ix2 r q)) (x1 (ix2 r q)) (x2 (ix2 (0 : Fin 1) q))

/-- The whole `[2, 200000, 128]` result as one function of the three argument arrays. -/
def planes (x0 x1 : (⟨2, ![200000, 128]⟩ : Shape).Idx → EReal) (x2 : (⟨2, ![1, 128]⟩ : Shape).Idx → EReal) :
    (⟨3, ![2, 200000, 128]⟩ : Shape).Idx → EReal :=
  fun i => entry x0 x1 x2 (i 0) (i 1) (i 2)

end Cert.ModRelu

end
-- ==== Proof.KernelBody.lean ====
/-
  What the kernel body leaves in its output buffer, one entry at a time, on the extended reals.

  The body loads a `[4000, 128]` block of real parts `x0`, one of imaginary parts `x1` and the `[1, 128]` bias row `x2`.
  It forms the squared modulus, tests it against zero, takes the reciprocal root of the squared modulus (of one where the
  test fails), recovers the modulus as the product of the two, adds the bias row repeated down the rows, clamps at zero and
  multiplies by the reciprocal root again: the scale. It stores `scale · x0` (or `x0` where the test fails) as plane 0 of a
  `[2, 4000, 128]` buffer and `scale · x1` (or `x1`) as plane 1. So the buffer at plane `k`, row `r`, lane `q` is
  `ModRelu.viaSquare` of the entry of plane `k`'s block there, the two parts there and the bias at lane `q`
  (`buffer_apply`).

  Each plane is written through its own rectangle — the `[1, 4000, 128]` box at offset `(0, 0, 0)` and the one at
  `(1, 0, 0)` —, the later store listed first. An index of plane 1 is the image of `(0, r, q)` under the later store's
  rectangle and reads its payload; an index of plane 0 is outside that rectangle (its first coordinate is 0, the
  rectangle's are 1) and reads the earlier store's payload.
-/
import proofs.«122848_j6390911336495_2_alg».proof.Proof.Gen.KernelIdeal.Frame
import proofs.«122848_j6390911336495_2_alg».proof.Proof.ModRelu
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.ModRelu

variable (x0 x1 : Vec Ideal S4000x128 .f32) (x2 : Vec Ideal S1x128 .f32)

/-- The squared modulus at row `r`, lane `q`. -/
theorem squared_apply (r : Fin 4000) (q : Fin 128) :
    k0_pay1 x0 x1 (ix2 r q) = sq (x0 (ix2 r q)) (x1 (ix2 r q)) := rfl

/-- The test "the squared modulus is positive" there. -/
theorem test_apply (r : Fin 4000) (q : Fin 128) :
    k0_pay2 x0 x1 (ix2 r q) = Ideal.cmp .ogt (sq (x0 (ix2 r q)) (x1 (ix2 r q))) zeroW := rfl

/-- The scale there: the bias row, repeated down the rows, is read at lane `q` of its one row. -/
theorem scale_apply (r : Fin 4000) (q : Fin 128) :
    k0_pay3 x0 x1 x2 (ix2 r q)
      = max (sq (x0 (ix2 r q)) (x1 (ix2 r q))
              * Ideal.rsqrt (Scalar.select (Ideal.cmp .ogt (sq (x0 (ix2 r q)) (x1 (ix2 r q))) zeroW) (sq (x0 (ix2 r q)) (x1 (ix2 r q))) oneW)
            + x2 (ix2 (0 : Fin 1) q)) zeroW
          * Ideal.rsqrt (Scalar.select (Ideal.cmp .ogt (sq (x0 (ix2 r q)) (x1 (ix2 r q))) zeroW) (sq (x0 (ix2 r q)) (x1 (ix2 r q))) oneW) := by
  unfold k0_pay3
  exact congrArg (fun z : EReal => max (sq (x0 (ix2 r q)) (x1 (ix2 r q))
              * Ideal.rsqrt (Scalar.select (Ideal.cmp .ogt (sq (x0 (ix2 r q)) (x1 (ix2 r q))) zeroW) (sq (x0 (ix2 r q)) (x1 (ix2 r q))) oneW)
            + z) zeroW
          * Ideal.rsqrt (Scalar.select (Ideal.cmp .ogt (sq (x0 (ix2 r q)) (x1 (ix2 r q))) zeroW) (sq (x0 (ix2 r q)) (x1 (ix2 r q))) oneW))
    (broadcastTo_1b_ab_apply x2 broadcasts_S1x128_S4000x128 r q)

/-- The payload of the store into plane 0: the scaled real part. -/
theorem plane0_apply (u : Fin 1) (r : Fin 4000) (q : Fin 128) :
    k0_pay4 x0 x1 x2 (ix3 u r q) = viaSquare (x0 (ix2 r q)) (x0 (ix2 r q)) (x1 (ix2 r q)) (x2 (ix2 (0 : Fin 1) q)) := by
  unfold k0_pay4
  refine (shapeCast_ab_1ab_apply _ shapeCasts_S4000x128_S1x4000x128 u r q).trans ?_
  show Scalar.select (k0_pay2 x0 x1 (ix2 r q)) (k0_pay3 x0 x1 x2 (ix2 r q) * x0 (ix2 r q)) (x0 (ix2 r q)) = _
  rw [test_apply, scale_apply]
  rfl

/-- The payload of the store into plane 1: the scaled imaginary part. -/
theorem plane1_apply (u : Fin 1) (r : Fin 4000) (q : Fin 128) :
    k0_pay5 x0 x1 x2 (ix3 u r q) = viaSquare (x1 (ix2 r q)) (x0 (ix2 r q)) (x1 (ix2 r q)) (x2 (ix2 (0 : Fin 1) q)) := by
  unfold k0_pay5
  refine (shapeCast_ab_1ab_apply _ shapeCasts_S4000x128_S1x4000x128 u r q).trans ?_
  show Scalar.select (k0_pay2 x0 x1 (ix2 r q)) (k0_pay3 x0 x1 x2 (ix2 r q) * x1 (ix2 r q)) (x1 (ix2 r q)) = _
  rw [test_apply, scale_apply]
  rfl

/-- Both offset lists of the loads are zero. -/
theorem zero2 : (![0, 0] : Fin 2 → Nat) = fun _ => 0 := funext fun a => by fin_cases a <;> rfl

/-- The index `(1, r, q)` of the buffer is the later store's rectangle at `(0, r, q)`. -/
theorem emb_plane1 (r : Fin 4000) (q : Fin 128) : r0_3.emb (ix3 (0 : Fin 1) r q) = ix3 (1 : Fin 2) r q := by
  funext a; apply Fin.ext
  match a with
  | ⟨0, _⟩ => rfl
  | ⟨1, _⟩ => show 0 + 1 * r.val = r.val; omega
  | ⟨2, _⟩ => show 0 + 1 * q.val = q.val; omega

/-- The index `(0, r, q)` of the buffer is the earlier store's rectangle at `(0, r, q)`, -/
theorem emb_plane0 (r : Fin 4000) (q : Fin 128) : r0_2.emb (ix3 (0 : Fin 1) r q) = ix3 (0 : Fin 2) r q := by
  funext a; apply Fin.ext
  match a with
  | ⟨0, _⟩ => rfl
  | ⟨1, _⟩ => show 0 + 1 * r.val = r.val; omega
  | ⟨2, _⟩ => show 0 + 1 * q.val = q.val; omega

/-- and lies outside the later store's: its first coordinate is 0, the rectangle's first coordinates start at 1. -/
theorem not_mem_plane1 (r : Fin 4000) (q : Fin 128) : ix3 (0 : Fin 2) r q ∉ r0_3.set := by
  rw [Rect.mem_set_unit]
  intro h
  have h0 : (1 : Nat) ≤ 0 := (h 0).1
  omega

section TwoStores

variable (p1 p0 : Vec Ideal S1x4000x128 .f32)

/-- Two stores, the later one (listed first) into plane 1 and the earlier into plane 0: plane 1 reads the later
    store's payload, -/
theorem canon_plane1 (r : Fin 4000) (q : Fin 128) :
    View.canon ([⟨r0_3, p1⟩, ⟨r0_2, p0⟩] : List (View.Piece (Elt Ideal) S2x4000x128 .f32)) (ix3 (1 : Fin 2) r q)
      = p1 (ix3 (0 : Fin 1) r q) :=
  (congrArg (View.canon ([⟨r0_3, p1⟩, ⟨r0_2, p0⟩] : List (View.Piece (Elt Ideal) S2x4000x128 .f32))) (emb_plane1 r q).symm).trans
    (View.canon_cons_emb (Val := Elt Ideal) r0_3 p1 [⟨r0_2, p0⟩] (ix3 (0 : Fin 1) r q))

/-- and plane 0 the earlier store's. -/
theorem canon_plane0 (r : Fin 4000) (q : Fin 128) :
    View.canon ([⟨r0_3, p1⟩, ⟨r0_2, p0⟩] : List (View.Piece (Elt Ideal) S2x4000x128 .f32)) (ix3 (0 : Fin 2) r q)
      = p0 (ix3 (0 : Fin 1) r q) :=
  (View.canon_cons_of_not_mem (Val := Elt Ideal) (⟨r0_3, p1⟩ : View.Piece (Elt Ideal) S2x4000x128 .f32) [⟨r0_2, p0⟩]
      (not_mem_plane1 r q)).trans
    ((congrArg (View.canon ([⟨r0_2, p0⟩] : List (View.Piece (Elt Ideal) S2x4000x128 .f32))) (emb_plane0 r q).symm).trans
      (View.canon_cons_emb (Val := Elt Ideal) r0_2 p0 [] (ix3 (0 : Fin 1) r q)))

end TwoStores

/-- The loads read the whole of each input block. -/
theorem ld_block (x : Vec Ideal S4000x128 .f32) : View.ld x r0_0 = x := View.ld_unit_zero (S := S4000x128) zero2 _ x
theorem ld_row (x : Vec Ideal S1x128 .f32) : View.ld x r0_1 = x := View.ld_unit_zero (S := S1x128) zero2 _ x

/-- THE BUFFER after the body, at plane `k`, row `r`, lane `q`. -/
theorem buffer_apply (k : Fin 2) (r : Fin 4000) (q : Fin 128) :
    out0_3 x0 x1 x2 (ix3 k r q)
      = viaSquare (if k.val = 0 then x0 (ix2 r q) else x1 (ix2 r q)) (x0 (ix2 r q)) (x1 (ix2 r q)) (x2 (ix2 (0 : Fin 1) q)) := by
  unfold out0_3
  rw [ld_block, ld_block, ld_row]
  match k with
  | ⟨0, _⟩ =>
    exact (canon_plane0 (k0_pay5 x0 x1 x2) (k0_pay4 x0 x1 x2) r q).trans (plane0_apply x0 x1 x2 0 r q)
  | ⟨1, _⟩ =>
    exact (canon_plane1 (k0_pay5 x0 x1 x2) (k0_pay4 x0 x1 x2) r q).trans (plane1_apply x0 x1 x2 0 r q)

/-- The same at any index of the buffer, by its coordinates. -/
theorem buffer_apply' (y : S2x4000x128.Idx) :
    out0_3 x0 x1 x2 y
      = viaSquare (if (y 0).val = 0 then x0 (ix2 (y 1) (y 2)) else x1 (ix2 (y 1) (y 2))) (x0 (ix2 (y 1) (y 2))) (x1 (ix2 (y 1) (y 2)))
          (x2 (ix2 (0 : Fin 1) (y 2))) := by
  obtain ⟨k, r, q, rfl⟩ : ∃ (k : Fin 2) (r : Fin 4000) (q : Fin 128), y = ix3 k r q := ⟨y 0, y 1, y 2, eq_ix3 y⟩
  exact buffer_apply x0 x1 x2 k r q

end Cert.KernelIdeal.Body

end
-- ==== Proof.KernelPlanes.lean ====
/-
  The kernel's result array: the `[2, 200000, 128]` output, written block by block, is `ModRelu.planes` of the arguments.

  The grid has 50 points. At point `t` the body sees rows `4000·t … 4000·t + 3999` of the real parts and of the imaginary
  parts, the whole bias row, and writes back the `[2, 4000, 128]` block of the output that holds both planes of those rows.
  Entry `(k, r, q)` of that block is entry `(k, 4000·t + r, q)` of the array, and the input blocks' entries `(r, q)` are
  the arguments' entries `(4000·t + r, q)`: so what the body leaves there (`Body.buffer_apply'`) is `ModRelu.entry` of
  the arguments at `(k, 4000·t + r, q)` (`written_eq`). Row `R` of the array lies in the block of point `R / 4000`, so the 50
  blocks cover the array (`covered`) and the array ends holding `planes` (`result_eq_planes`).
-/
import proofs.«122848_j6390911336495_2_alg».proof.Proof.Gen.KernelIdeal.Value
import proofs.«122848_j6390911336495_2_alg».proof.Proof.KernelBody
import Idealize.ShloMosaic.Lib.Pipeline.Value

set_option maxRecDepth 16384

noncomputable section

namespace Cert.KernelIdeal.Planes

open Cert.KernelIdeal Cert.KernelIdeal.Gen Idealize.ShloMosaic Idealize.ShloMosaic.TcCoe Idealize.SL.Sem
open Idealize.ShloMosaic.ValueIdx Cert.ModRelu
open Idealize.ShloMosaic.Pipeline (Dat)

variable (m : (ℓ : Loc nD τ sig) → Buf (Elt Ideal) ℓ) (ρ : Dev nD → PrngReg)

/-- The block indices at a grid point, decided over the 50 points: the two inputs' row blocks move with the output's,
    every other block index is zero, and the output's row block index is below 50. -/
theorem idx_facts : ∀ t : Fin cfg0.N,
    win0_0.index t (0 : Fin 2) = win0_3.index t (1 : Fin 3) ∧ win0_0.index t (1 : Fin 2) = 0
    ∧ win0_1.index t (0 : Fin 2) = win0_3.index t (1 : Fin 3) ∧ win0_1.index t (1 : Fin 2) = 0
    ∧ win0_2.index t (0 : Fin 2) = 0 ∧ win0_2.index t (1 : Fin 2) = 0
    ∧ win0_3.index t (0 : Fin 3) = 0 ∧ win0_3.index t (2 : Fin 3) = 0 ∧ win0_3.index t (1 : Fin 3) < 50 :=
  (by decide +kernel : ∀ t : Fin grid0.N, _)

/-- Every row block of the output is some point's. -/
theorem idx_onto : ∀ q : Fin 50, ∃ t : Fin cfg0.N, win0_3.index t = ![0, q.val, 0] :=
  (by decide +kernel : ∀ q : Fin 50, ∃ t : Fin grid0.N, win0_3.index t = ![0, q.val, 0])

/-- Entry `(r, q)` of the real parts' block at point `t` is the argument's entry at the array row `R` it sits in. -/
theorem real_block_apply (c : Dev nD) (t : Fin cfg0.N) (r : Fin 4000) (q : Fin 128) (R : Fin 200000)
    (hR : R.val = win0_3.index t (1 : Fin 3) * 4000 + r.val) :
    iblk m c 0 t (ix2 r q) = V m c main_arg0 (ix2 R q) := by
  obtain ⟨e00, e01, -⟩ := idx_facts t
  show V m c main_arg0 (((cfg0.win 0).blk t).view.emb (ix2 r q)) = V m c main_arg0 (ix2 R q)
  congr 1
  funext a; apply Fin.ext
  match a with
  | ⟨0, _⟩ => show win0_0.index t (0 : Fin 2) * 4000 + 1 * r.val = R.val; omega
  | ⟨1, _⟩ => show win0_0.index t (1 : Fin 2) * 128 + 1 * q.val = q.val; omega

/-- The same for the imaginary parts' block. -/
theorem imag_block_apply (c : Dev nD) (t : Fin cfg0.N) (r : Fin 4000) (q : Fin 128) (R : Fin 200000)
    (hR : R.val = win0_3.index t (1 : Fin 3) * 4000 + r.val) :
    iblk m c 1 t (ix2 r q) = V m c main_arg1 (ix2 R q) := by
  obtain ⟨-, -, e10, e11, -⟩ := idx_facts t
  show V m c main_arg1 (((cfg0.win 1).blk t).view.emb (ix2 r q)) = V m c main_arg1 (ix2 R q)
  congr 1
  funext a; apply Fin.ext
  match a with
  | ⟨0, _⟩ => show win0_1.index t (0 : Fin 2) * 4000 + 1 * r.val = R.val; omega
  | ⟨1, _⟩ => show win0_1.index t (1 : Fin 2) * 128 + 1 * q.val = q.val; omega

/-- The bias block at every point is the whole bias row. -/
theorem bias_block_apply (c : Dev nD) (t : Fin cfg0.N) (q : Fin 128) :
    iblk m c 2 t (ix2 (0 : Fin 1) q) = V m c main_arg2 (ix2 (0 : Fin 1) q) := by
  obtain ⟨-, -, -, -, e20, e21, -⟩ := idx_facts t
  show V m c main_arg2 (((cfg0.win 2).blk t).view.emb (ix2 (0 : Fin 1) q)) = V m c main_arg2 (ix2 (0 : Fin 1) q)
  congr 1
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- WHAT POINT `t` WRITES BACK is block `t` of `planes` of the arguments. -/
theorem written_eq (c : Dev nD) (t : Fin cfg0.N) :
    (dats m 0 c).flushed 3 t
      = ((cfg0.win 3).blk t).view.read (Elt Ideal) (planes (V m c main_arg0) (V m c main_arg1) (V m c main_arg2)) := by
  rw [Value.flushed3]
  obtain ⟨-, -, -, -, -, -, e30, e32, e31⟩ := idx_facts t
  refine funext fun (y : S2x4000x128.Idx) => ?_
  show out0_3 (iblk m c 0 t) (iblk m c 1 t) (iblk m c 2 t) y
    = planes (V m c main_arg0) (V m c main_arg1) (V m c main_arg2) (((cfg0.win 3).blk t).view.emb y)
  have hy1 : (y 1).val < 4000 := (y 1).isLt
  have hy2 : (y 2).val < 128 := (y 2).isLt
  have hy0 : (y 0).val < 2 := (y 0).isLt
  -- the block's entry sits in the array at plane `y 0`, row `4000·t + y 1`, lane `y 2`
  have hE : ((cfg0.win 3).blk t).view.emb y
      = ix3 (y 0) (⟨win0_3.index t (1 : Fin 3) * 4000 + (y 1).val, by omega⟩ : Fin 200000) (y 2) := by
    funext a; apply Fin.ext
    match a with
    | ⟨0, _⟩ => show win0_3.index t (0 : Fin 3) * 2 + 1 * (y 0).val = (y 0).val; omega
    | ⟨1, _⟩ => show win0_3.index t (1 : Fin 3) * 4000 + 1 * (y 1).val = win0_3.index t (1 : Fin 3) * 4000 + (y 1).val; omega
    | ⟨2, _⟩ => show win0_3.index t (2 : Fin 3) * 128 + 1 * (y 2).val = (y 2).val; omega
  rw [hE]
  refine (Body.buffer_apply' _ _ _ y).trans ?_
  rw [real_block_apply m c t (y 1) (y 2) ⟨win0_3.index t (1 : Fin 3) * 4000 + (y 1).val, by omega⟩ rfl,
    imag_block_apply m c t (y 1) (y 2) ⟨win0_3.index t (1 : Fin 3) * 4000 + (y 1).val, by omega⟩ rfl,
    bias_block_apply m c t (y 2)]
  rfl

/-- An index of the array is in point `t`'s block iff each coordinate is in the block's range on its axis. -/
theorem mem_blk (t : Fin cfg0.N) (i : S2x200000x128.Idx) :
    i ∈ ((cfg0.win 3).blk t).view.set
      ↔ ∀ a : Fin 3, win0_3.index t a * S2x4000x128.size a ≤ (i a).val ∧ (i a).val < win0_3.index t a * S2x4000x128.size a + S2x4000x128.size a := by
  show i ∈ ((View.whole main_v0).slice (win0_3.rect t)).set ↔ _
  rw [View.set_slice_whole, Rect.mem_set_unit]
  exact Iff.rfl

/-- THE COVER: row `R` of the array lies in the block of point `R / 4000`. -/
theorem covered (i : S2x200000x128.Idx) :
    ∃ t : Fin cfg0.N, (cfg0.win 3).flush t = true ∧ i ∈ ((cfg0.win 3).blk t).view.set := by
  have hi0 : (i 0).val < 2 := (i 0).isLt
  have hi1 : (i 1).val < 200000 := (i 1).isLt
  have hi2 : (i 2).val < 128 := (i 2).isLt
  obtain ⟨t, ht⟩ := idx_onto ⟨(i 1).val / 4000, by omega⟩
  have q0 : win0_3.index t (0 : Fin 3) = 0 := congrFun ht 0
  have q1 : win0_3.index t (1 : Fin 3) = (i 1).val / 4000 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 4000 ≤ (i 1).val ∧ (i 1).val < win0_3.index t (1 : Fin 3) * 4000 + 4000; omega
  | ⟨2, _⟩ => show win0_3.index t (2 : Fin 3) * 128 ≤ (i 2).val ∧ (i 2).val < win0_3.index t (2 : Fin 3) * 128 + 128; omega

/-- THE ARRAY after the run is `planes` of the arguments as launched. -/
theorem result_eq_planes (c : Dev nD) :
    (dats m 0 c).arrAt 3 cfg0.N
      = planes (m ((c : Thread nD τ).loc main_arg0)) (m ((c : Thread nD τ).loc main_arg1)) (m ((c : Thread nD τ).loc main_arg2)) :=
  (dats m 0 c).arrAt_eq_of_cover 3 _ (fun t _ => written_eq m c t) covered

/-- The kernel's run: the result array at `planes` of the arguments, the arguments unchanged. -/
theorem run : θ_run defs (onTc (τ := τ) (main (F := Ideal))) ⟨m, fun _ => 0, ρ⟩ fun r => ∀ c : Dev nD,
      r.2.mem ((c : Thread nD τ).loc main_v0)
        = planes (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq_planes m c), (h c).2⟩) (Value.run_blocks m ρ)

end Cert.KernelIdeal.Planes

end
-- ==== Proof.ReferencePlanes.lean ====
/-
  The reference program's result, one entry at a time, on the extended reals.

  The reference takes the modulus `ρ = √(x0² + x1²)`, tests `ρ > 0`, divides `max (ρ + bias) 0` by `ρ` (by one where
  the test fails) and multiplies the real and the imaginary parts by that quotient, keeping a part unchanged where the test
  fails; the bias row is repeated down the rows. Each of the two `[200000, 128]` results is `ModRelu.viaRoot` at every
  entry (`real_plane_apply`, `imag_plane_apply`). They are then given a leading axis of extent one and joined along it:
  plane 0 of the `[2, 200000, 128]` result is the first, plane 1 the second (`joined_apply`).

  Where every real and imaginary part is a real number, `viaRoot` is `viaSquare` (the law of `ModRelu`), so the result is
  `ModRelu.planes` of the three arguments (`result_eq_planes`).
-/
import proofs.«122848_j6390911336495_2_alg».proof.Proof.Gen.ReferenceIdeal.Read
import proofs.«122848_j6390911336495_2_alg».proof.Proof.ModRelu
import Idealize.ShloMosaic.Lib.ValueIdx
import Idealize.ShloMosaic.Lib.Pipeline.Value

noncomputable section

namespace Cert.ReferenceIdeal.Planes

open Cert.ReferenceIdeal Cert.ReferenceIdeal.Gen Cert.ReferenceIdeal.Read Idealize.ShloMosaic Idealize.ShloMosaic.ValueIdx Cert.ModRelu

variable (x0 x1 : (⟨S200000x128, .f32⟩ : BufTy).Contents (Elt Ideal)) (x2 : (⟨S1x128, .f32⟩ : BufTy).Contents (Elt Ideal))

/-- The bias row repeated down the rows is read at lane `q` of its one row. -/
theorem bias_idx (r : Fin 200000) (q : Fin 128) : idx_main_v7 (ix2 r q) = ix2 (0 : Fin 1) q :=
  funext fun a => Fin.ext (by match a with | ⟨0, _⟩ => rfl | ⟨1, _⟩ => rfl)

/-- The scaled real parts, before the planes are joined. -/
theorem real_plane_apply (r : Fin 200000) (q : Fin 128) :
    val_main_v12 (F := Ideal) x0 x1 x2 (ix2 r q)
      = viaRoot (x0 (ix2 r q)) (x0 (ix2 r q)) (x1 (ix2 r q)) (x2 (ix2 (0 : Fin 1) q)) := by
  rw [val_main_v12_apply, val_main_v11_apply, val_main_v10_apply, val_main_v9_apply, val_main_v8_apply, val_main_v6_apply,
    val_main_v5_apply, val_main_v4_apply, val_main_call1_v0_apply, val_main_call0_v1_apply, val_main_v7_apply,
    val_main_v3_apply, val_main_v2_apply, val_main_v1_apply, val_main_v0_apply, val_main_cst_apply,
    val_main_call1_cst_apply, val_main_call0_v0_apply, val_main_cst_0_apply, bias_idx]
  rfl

/-- The scaled imaginary parts, before the planes are joined. -/
theorem imag_plane_apply (r : Fin 200000) (q : Fin 128) :
    val_main_v14 (F := Ideal) x0 x1 x2 (ix2 r q)
      = viaRoot (x1 (ix2 r q)) (x0 (ix2 r q)) (x1 (ix2 r q)) (x2 (ix2 (0 : Fin 1) q)) := by
  rw [val_main_v14_apply, val_main_v13_apply, val_main_v10_apply, val_main_v9_apply, val_main_v8_apply, val_main_v6_apply,
    val_main_v5_apply, val_main_v4_apply, val_main_call1_v0_apply, val_main_call0_v1_apply, val_main_v7_apply,
    val_main_v3_apply, val_main_v2_apply, val_main_v1_apply, val_main_v0_apply, val_main_cst_apply,
    val_main_call1_cst_apply, val_main_call0_v0_apply, val_main_cst_0_apply, bias_idx]
  rfl

/-- A plane given a leading unit axis is read at `(0, r, q)` where the plane is read at `(r, q)`. -/
theorem lead_idx15 (r : Fin 200000) (q : Fin 128) : idx_main_v15 (ix3 (0 : Fin 1) r q) = ix2 r q :=
  funext fun a => Fin.ext (by match a with | ⟨0, _⟩ => rfl | ⟨1, _⟩ => rfl)
theorem lead_idx16 (r : Fin 200000) (q : Fin 128) : idx_main_v16 (ix3 (0 : Fin 1) r q) = ix2 r q :=
  funext fun a => Fin.ext (by match a with | ⟨0, _⟩ => rfl | ⟨1, _⟩ => rfl)

/-- Plane 0 of the joined result is the first piece, -/
theorem joined_plane0 (r : Fin 200000) (q : Fin 128) :
    val_main_v17 (F := Ideal) x0 x1 x2 (ix3 (0 : Fin 2) r q) = val_main_v12 (F := Ideal) x0 x1 x2 (ix2 r q) := by
  unfold val_main_v17
  refine (concatenate_pair_apply_left (0 : Fin 3) (val_main_v15 (F := Ideal) x0 x1 x2) (val_main_v16 (F := Ideal) x0 x1 x2)
    concatenates_S1x200000x128_S1x200000x128_S2x200000x128_d0 (ix3 (0 : Fin 2) r q) rfl (ix3 (0 : Fin 1) r q)
    (fun b => by match b with | ⟨0, _⟩ => rfl | ⟨1, _⟩ => rfl | ⟨2, _⟩ => rfl)).trans ?_
  rw [val_main_v15_apply, lead_idx15]

/-- plane 1 the second. -/
theorem joined_plane1 (r : Fin 200000) (q : Fin 128) :
    val_main_v17 (F := Ideal) x0 x1 x2 (ix3 (1 : Fin 2) r q) = val_main_v14 (F := Ideal) x0 x1 x2 (ix2 r q) := by
  unfold val_main_v17
  refine (concatenate_pair_apply_right (0 : Fin 3) (val_main_v15 (F := Ideal) x0 x1 x2) (val_main_v16 (F := Ideal) x0 x1 x2)
    concatenates_S1x200000x128_S1x200000x128_S2x200000x128_d0 (ix3 (1 : Fin 2) r q) rfl rfl (ix3 (0 : Fin 1) r q)
    (fun b hb => by
      match b with
      | ⟨0, _⟩ => exact absurd rfl hb
      | ⟨1, _⟩ => rfl
      | ⟨2, _⟩ => rfl)
    rfl).trans ?_
  rw [val_main_v16_apply, lead_idx16]

/-- THE REFERENCE'S RESULT where every real and imaginary part is a real number. -/
theorem result_eq_planes (h0 : ∀ i, ∃ a : ℝ, x0 i = (a : EReal)) (h1 : ∀ i, ∃ c : ℝ, x1 i = (c : EReal)) :
    val_main_v17 (F := Ideal) x0 x1 x2 = planes x0 x1 x2 := by
  funext i
  obtain ⟨k, r, q, rfl⟩ : ∃ (k : Fin 2) (r : Fin 200000) (q : Fin 128), i = ix3 k r q := ⟨i 0, i 1, i 2, eq_ix3 i⟩
  show _ = entry x0 x1 x2 k r q
  unfold entry
  obtain ⟨a, ha⟩ := h0 (ix2 r q)
  obtain ⟨c, hc⟩ := h1 (ix2 r q)
  match k with
  | ⟨0, _⟩ =>
    refine (joined_plane0 x0 x1 x2 r q).trans ?_
    rw [real_plane_apply, if_pos rfl, ha, hc, viaRoot_eq_viaSquare]
  | ⟨1, _⟩ =>
    refine (joined_plane1 x0 x1 x2 r q).trans ?_
    rw [imag_plane_apply, if_neg Nat.one_ne_zero, ha, hc, viaRoot_eq_viaSquare]

end Cert.ReferenceIdeal.Planes

end
-- ==== Proof.RealInputs.lean ====
/-
  From the precondition to real numbers.

  The precondition is the conjunction of three tests, one per argument: every entry `x` of the argument has `|x| < +∞`,
  the comparisons gathered by a reduction with "and" over the whole array. On the extended reals `|x| = max x (-x)`, and
  `max x (-x) < +∞` rules out both infinities, so `x` is a real number (`real_of_abs_lt_inf`). Where the precondition holds,
  every real part and every imaginary part is therefore a real number (`real_parts`); the bias is not needed.
-/
import proofs.«122848_j6390911336495_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Pre_finite_inputs.Reals

open Idealize.ShloMosaic Idealize.ShloMosaic.ValueIdx Cert.Pre_finite_inputs

/-- The word the tests compare against is `+∞`. -/
theorem inf_word : Ideal.ofBits .f32 0x7F800000#32 = (⊤ : EReal) := by simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => simp at hlt
  | coe r => exact ⟨r, rfl⟩
  | top => simp at hlt

variable [Facts]

/-- Where the precondition holds of the three arguments, every real part and every imaginary part is a real number. -/
theorem real_parts (a0 a1 : FVec Ideal S200000x128 .f32) (a2 : FVec Ideal S1x128 .f32)
    (h : fn (F := Ideal) a0 a1 a2 = fun _ => 1#1) :
    (∀ i, ∃ r : ℝ, a0 i = (r : EReal)) ∧ (∀ i, ∃ r : ℝ, a1 i = (r : EReal)) := by
  have h1 := congrFun h ix0
  dsimp only [fn] at h1
  obtain ⟨h12, -⟩ := IntOp.andi_eq_one.1 h1
  obtain ⟨hA, hB⟩ := IntOp.andi_eq_one.1 h12
  haveI : Subsingleton S_.Idx := ⟨fun a b => funext fun d => d.elim0⟩
  have eb : ∀ i : S200000x128.Idx,
      broadcastInDim S200000x128 ![] Facts.bcast_S_S200000x128 (constant (F := Ideal) S_ .f32 0x7F800000#32) i
        = Ideal.ofBits .f32 0x7F800000#32 :=
    fun i => broadcastInDim_apply _ Facts.bcast_S_S200000x128 (constant (F := Ideal) S_ .f32 0x7F800000#32) i ix0 (fun a => a.elim0)
  refine ⟨fun i => ?_, fun i => ?_⟩
  · have e := Host.reduce_andi_all _ _ _ _ ix0 hA i
    have e' : Ideal.cmp .olt (max (a0 i) (-(a0 i)))
        (broadcastInDim S200000x128 ![] Facts.bcast_S_S200000x128 (constant (F := Ideal) S_ .f32 0x7F800000#32) i) = 1#1 := e
    rw [eb] at e'
    exact real_of_abs_lt_inf (a0 i) e'
  · have e := Host.reduce_andi_all _ _ _ _ ix0 hB i
    have e' : Ideal.cmp .olt (max (a1 i) (-(a1 i)))
        (broadcastInDim S200000x128 ![] Facts.bcast_S_S200000x128 (constant (F := Ideal) S_ .f32 0x7F800000#32) i) = 1#1 := e
    rw [eb] at e'
    exact real_of_abs_lt_inf (a1 i) e'

end Cert.Pre_finite_inputs.Reals

end
-- ==== Proof.lean ====
/-
  Masked complex modReLU over `[200000, 128]`: the tiled kernel against the plain reference, on the extended reals.

  For a complex entry with real part `a`, imaginary part `c` and modulus `ρ = √(a² + c²)`, and a bias `b` per lane, both
  programs return `max (ρ + b) 0 / ρ` times the entry where `ρ > 0` and the entry itself at the origin, the scaled real
  parts as plane 0 and the scaled imaginary parts as plane 1 of a `[2, 200000, 128]` array.

  They spell the scale differently. The kernel works from `s = a² + c²`: one reciprocal root `s^(-1/2)`, the modulus
  recovered as `s · s^(-1/2)`, the clamp `max (s · s^(-1/2) + b) 0` multiplied by `s^(-1/2)`, the origin tested by
  `s > 0`. The reference takes `ρ = √s`, tests `ρ > 0` and divides. For REAL `a`, `c` these are one function
  (`ModRelu.viaRoot_eq_viaSquare`: `s > 0` iff `√s > 0`, `s · (√s)⁻¹ = √s`, and dividing by the nonzero real `√s` is
  multiplying by `(√s)⁻¹`); at an infinite part they are not (`∞ · 0` against `√∞`), which is where the precondition —
  every input entry finite — is used (`RealInputs`).

  The kernel's array is `ModRelu.planes` of the arguments for any inputs: the body's buffer entry by entry
  (`KernelBody`), then the 50 row blocks of 4000 rows put together (`KernelPlanes`). The reference's array is
  `planes` of the arguments where the parts are real: its operations read entry by entry, the two planes joined, and the
  law (`ReferencePlanes`).

  The three frames are the programs' runs with the results dropped; nothing was rewritten between the kernel and its
  idealization, so that conjunct is `True`.
-/
import proofs.«122848_j6390911336495_2_alg».proof.Defs
import proofs.«122848_j6390911336495_2_alg».proof.Proof.Gen.Kernel
import proofs.«122848_j6390911336495_2_alg».proof.Proof.Gen.Kernel.Skeleton
import proofs.«122848_j6390911336495_2_alg».proof.Proof.Gen.Kernel.Launch
import proofs.«122848_j6390911336495_2_alg».proof.Proof.Gen.Kernel.Points
import proofs.«122848_j6390911336495_2_alg».proof.Proof.Gen.Kernel.Frame
import proofs.«122848_j6390911336495_2_alg».proof.Proof.Gen.KernelIdeal
import proofs.«122848_j6390911336495_2_alg».proof.Proof.Gen.KernelIdeal.Skeleton
import proofs.«122848_j6390911336495_2_alg».proof.Proof.Gen.KernelIdeal.Launch
import proofs.«122848_j6390911336495_2_alg».proof.Proof.Gen.KernelIdeal.Points
import proofs.«122848_j6390911336495_2_alg».proof.Proof.Gen.KernelIdeal.Frame
import proofs.«122848_j6390911336495_2_alg».proof.Proof.Gen.ReferenceIdeal
import proofs.«122848_j6390911336495_2_alg».proof.Proof.Gen.Pre_finite_inputs
import proofs.«122848_j6390911336495_2_alg».proof.Proof.Gen.KernelIdeal.Value
import proofs.«122848_j6390911336495_2_alg».proof.Proof.Gen.ReferenceIdeal.Run
import proofs.«122848_j6390911336495_2_alg».proof.Proof.Gen.ReferenceIdeal.Read
import proofs.«122848_j6390911336495_2_alg».proof.Proof.ModRelu
import proofs.«122848_j6390911336495_2_alg».proof.Proof.KernelBody
import proofs.«122848_j6390911336495_2_alg».proof.Proof.KernelPlanes
import proofs.«122848_j6390911336495_2_alg».proof.Proof.ReferencePlanes
import proofs.«122848_j6390911336495_2_alg».proof.Proof.RealInputs
import Idealize.ShloMosaic.Adequacy
import Idealize.ShloMosaic.Init

noncomputable section

namespace Cert.Proof

open Idealize.ShloMosaic Idealize.ShloMosaic.TcCoe Idealize.SL.Sem Cert.ModRelu

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at `planes` of the arguments: the kernel for any inputs, the
    reference where the real and imaginary parts are real numbers, which the precondition gives. -/
theorem algebraic : Cert.algebraic_KernelIdeal_ReferenceIdeal := by
  intro m ρ m' ρ' hpre hagree
  refine ⟨fun c => planes (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Planes.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _ _).trans ?_
  rw [(hagree c).1, (hagree c).2.1, (hagree c).2.2]
  obtain ⟨h0, h1⟩ := Cert.Pre_finite_inputs.Reals.real_parts _ _ _ (hpre c)
  exact Cert.ReferenceIdeal.Planes.result_eq_planes _ _ _ h0 h1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
